-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1600000x64 .f32) (main_arg1 : FVec F S100000x64 .f32) (main_arg2 : IVec S1600000 32) (main_arg3 : IVec S1600000 32) (main_arg4 : FVec F S64x64 .f32) (main_arg5 : FVec F S64 .f32) (main_arg6 : FVec F S64x64 .f32) (main_arg7 : FVec F S64 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S1600000x64 : Shape := ⟨2, ![1600000, 64]⟩
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S800000x128 : Shape := ⟨2, ![800000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S8000x128 : Shape := ⟨2, ![8000, 128]⟩

abbrev nBuf : Space → Nat
  | .hbm => 39
  | .vmem => 10
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S64x64, .f32⟩
  | .hbm, ⟨21, _⟩ => ⟨S64x128, .f32⟩
  | .hbm, ⟨22, _⟩ => ⟨S64x128, .f32⟩
  | .hbm, ⟨23, _⟩ => ⟨S128x128, .f32⟩
  | .hbm, ⟨24, _⟩ => ⟨S_, .f32⟩
  | .hbm, ⟨25, _⟩ => ⟨S64x64, .f32⟩
  | .hbm, ⟨26, _⟩ => ⟨S64x128, .f32⟩
  | .hbm, ⟨27, _⟩ => ⟨S64x128, .f32⟩
  | .hbm, ⟨28, _⟩ => ⟨S128x128, .f32⟩
  | .hbm, ⟨29, _⟩ => ⟨S128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S800000x128, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S8000x128, .f32⟩
  | .local _ .vmem, ⟨9, _⟩ => ⟨S8000x128, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x64_S800000x128 : S1600000x64.ShapeCasts S800000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S800000x128_S1600000x64 : S800000x128.ShapeCasts S1600000x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S8000x128_S128x128_S8000x128_1_0_0_1_n_n_wf : DotDims.WF S8000x128 S128x128 S8000x128 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S800000x128.size a
  hwx0_6 : ∀ i : grid0.Coords, EltTy.bits .f32 = 32 ∨ (Rect.block (s := S800000x128) S8000x128.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v7) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1600000x1 : Shape := ⟨2, ![1600000, 1]⟩

abbrev nBuf : Space → Nat
  | .hbm => 45
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x64, .f32⟩
  | .hbm, ⟨9, _⟩ => ⟨S1x64, .f32⟩
  | .hbm, ⟨10, _⟩ => ⟨S1600000x64, .f32⟩
  | .hbm, ⟨11, _⟩ => ⟨S1600000x64, .f32⟩
  | .hbm, ⟨12, _⟩ => ⟨S_, .f32⟩
  | .hbm, ⟨13, _⟩ => ⟨S1600000x64, .f32⟩
  | .hbm, ⟨14, _⟩ => ⟨S1600000x64, .f32⟩
  | .hbm, ⟨15, _⟩ => ⟨S_, .f32⟩
  | .hbm, ⟨16, _⟩ => ⟨S1600000x64, .f32⟩
  | .hbm, ⟨17, _⟩ => ⟨S1600000x64, .i1⟩
  | .hbm, ⟨18, _⟩ => ⟨S_, .f32⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S1600000x64, .f32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.EdgeFilter.lean ====
/-
  The mathematics of the continuous-filter convolution's edge message, with no program in sight.

  For one edge with radial features `x : Fin n → EReal`, gathered source-node features `g`, and the two dense layers
  `(w1, c1)`, `(w2, c2)`, the message at output feature `j` is
      g · ( Σ_k  σ( Σ_l x l · w1 l k + c1 k ) · w2 k j  +  c2 j ),
  where `σ` is the softplus of slope one half that turns linear once half its argument exceeds fourteen.

  The second half is the one algebraic law the certificate needs: two edges laid side by side in one row of width 128,
  pushed through the block-diagonal weights `diag(w, w)` and the twice-repeated biases, give each edge exactly its own
  64-wide message.  Over the extended reals this needs no finiteness: the off-diagonal blocks contribute products
  `x · 0 = 0` (also for infinite `x`) and sums of zeros, and everything else is a re-indexing of a finite sum.
-/
import Idealize.ShloMosaic.PureOps.Ideal
import Idealize.ShloMosaic.PureOps.Ideal.Laws
import Idealize.ShloMosaic.Lib.ValueIdx

noncomputable section

namespace Cert.EdgeFilter

open Idealize.ShloMosaic

/-- The literal one half. -/
abbrev half : EReal := Ideal.ofBits .f32 0x3F000000#32
/-- The literal fourteen. -/
abbrev fourteen : EReal := Ideal.ofBits .f32 0x41600000#32
/-- The literal two. -/
abbrev two : EReal := Ideal.ofBits .f32 0x40000000#32

/-- Softplus of slope one half with a linear cut: `a` itself where `a/2 > 14`, else `2 · log(1 + exp(min(a/2, 14)))`. -/
def act (a : EReal) : EReal :=
  Scalar.select (FloatOps.cmpf (F := Ideal) (φ := .f32) .ogt (half * a) fourteen) a
    (two * Ideal.log1p (Ideal.exp (min (half * a) fourteen)))

/-- One edge's message at output feature `j`: the gathered feature times the two-layer filter of the edge's radial features. -/
def message {n : Nat} (x : Fin n → EReal) (w1 : Fin n → Fin n → EReal) (c1 : Fin n → EReal)
    (w2 : Fin n → Fin n → EReal) (c2 : Fin n → EReal) (g : EReal) (j : Fin n) : EReal :=
  g * ((∑ k : Fin n, act ((∑ l : Fin n, x l * w1 l k) + c1 k) * w2 k j) + c2 j)

/-- The message depends on its data only through their values. -/
theorem message_congr {n : Nat} {x x' : Fin n → EReal} {w1 w1' : Fin n → Fin n → EReal} {c1 c1' : Fin n → EReal}
    {w2 w2' : Fin n → Fin n → EReal} {c2 c2' : Fin n → EReal} {g g' : EReal} (j : Fin n)
    (hx : ∀ l, x l = x' l) (hw1 : ∀ l k, w1 l k = w1' l k) (hc1 : ∀ k, c1 k = c1' k)
    (hw2 : ∀ k j', w2 k j' = w2' k j') (hc2 : ∀ j', c2 j' = c2' j') (hg : g = g') :
    message x w1 c1 w2 c2 g j = message x' w1' c1' w2' c2' g' j := by
  have e1 : x = x' := funext hx
  have e2 : w1 = w1' := funext fun l => funext (hw1 l)
  have e3 : c1 = c1' := funext hc1
  have e4 : w2 = w2' := funext fun k => funext (hw2 k)
  have e5 : c2 = c2' := funext hc2
  rw [e1, e2, e3, e4, e5, hg]

/-- Lane `d` of the `q`-th edge packed in a 128-wide row. -/
def lane (q : Fin 2) (d : Fin 64) : Fin 128 := ⟨q.val * 64 + d.val, by have := q.isLt; have := d.isLt; omega⟩

theorem lane_val (q : Fin 2) (d : Fin 64) : (lane q d).val = q.val * 64 + d.val := rfl

/-- A sum over the 128 lanes is the first edge's 64 lanes plus the second edge's. -/
theorem sum_lanes (f : Fin 128 → EReal) :
    ∑ i : Fin 128, f i = ∑ l : Fin 64, f (lane 0 l) + ∑ l : Fin 64, f (lane 1 l) := by
  have h := Fin.sum_univ_add (M := EReal) (a := 64) (b := 64) (f : Fin (64 + 64) → EReal)
  rw [h]
  rfl

/-- Contracting a packed row against a block-diagonal matrix `diag(w, w)` at a lane of edge `q` only sees edge `q`'s
    own lanes: the other edge's lanes meet the zero block. -/
theorem contract_blockdiag (X : Fin 128 → EReal) (W : Fin 128 → Fin 128 → EReal) (w : Fin 64 → Fin 64 → EReal)
    (hW : ∀ (q q' : Fin 2) (l k : Fin 64), W (lane q l) (lane q' k) = if q = q' then w l k else 0)
    (q : Fin 2) (k : Fin 64) :
    ∑ l' : Fin 128, X l' * W l' (lane q k) = ∑ l : Fin 64, X (lane q l) * w l k := by
  rw [sum_lanes]
  simp only [hW]
  fin_cases q
  · simp
  · simp

/-- THE LAW: the 128-wide message of two packed edges through block-diagonal weights and repeated biases is, at edge
    `q`'s lane `d`, that edge's own 64-wide message at `d`. -/
theorem message_packed (X : Fin 128 → EReal) (W1 W2 : Fin 128 → Fin 128 → EReal) (C1 C2 : Fin 128 → EReal)
    (w1 w2 : Fin 64 → Fin 64 → EReal) (c1 c2 : Fin 64 → EReal)
    (hW1 : ∀ (q q' : Fin 2) (l k : Fin 64), W1 (lane q l) (lane q' k) = if q = q' then w1 l k else 0)
    (hW2 : ∀ (q q' : Fin 2) (l k : Fin 64), W2 (lane q l) (lane q' k) = if q = q' then w2 l k else 0)
    (hC1 : ∀ (q : Fin 2) (k : Fin 64), C1 (lane q k) = c1 k)
    (hC2 : ∀ (q : Fin 2) (k : Fin 64), C2 (lane q k) = c2 k)
    (g : EReal) (q : Fin 2) (d : Fin 64) :
    message X W1 C1 W2 C2 g (lane q d) = message (fun l => X (lane q l)) w1 c1 w2 c2 g d := by
  unfold message
  rw [contract_blockdiag (fun k' => act ((∑ l' : Fin 128, X l' * W1 l' k') + C1 k')) W2 w2 hW2 q d, hC2]
  simp only [contract_blockdiag X W1 w1 hW1 q, hC1]

end Cert.EdgeFilter

end
-- ==== Proof.KernelRow.lean ====
/-
  What the kernel body stores, read at one coordinate.

  The body works on a block of 8000 packed rows (two edges per 128-wide row).  At row `p`, lane `j` the stored value is
  the gathered feature at `(p, j)` times the two-layer filter of row `p`: both matrix products accumulate into a zero
  splat, so each is the plain sum over the 128 contracted lanes; the two bias rows are one row spread down the block;
  the changes of float format are the identity on the extended reals.  So the stored value is `EdgeFilter.message` of
  row `p` at lane `j`, over the 128 lanes.
-/
import proofs.«110838_j47614007443631_2_alg».proof.Proof.Gen.KernelIdeal.Skeleton
import proofs.«110838_j47614007443631_2_alg».proof.Proof.EdgeFilter
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx Cert.EdgeFilter

/-- The row coordinate of the left operand of the block's matrix product is the output's row. -/
theorem lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl

/-- The column coordinate of the right operand is the output's column. -/
theorem rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block's matrix product into a zero accumulator, at `(p, j)`: the sum over the contracted lane `k` of
    `a (p, k) · b (k, j)`. -/
theorem matmul_zero_apply {φ₁ φ₂ : FTy} (a : FVec Ideal S8000x128 φ₁) (b : FVec Ideal S128x128 φ₂) (p : Fin 8000) (j : Fin 128) :
    matmul dot_S8000x128_S128x128_S8000x128_1_0_0_1_n_n none a b (constant S8000x128 .f32 0x00000000#32) (ix2 p j)
      = ∑ k : Fin 128, a (ix2 p k) * b (ix2 k j) := by
  unfold matmul
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p j) ((contrEquiv1 dot_S8000x128_S128x128_S8000x128_1_0_0_1_n_n 128 rfl rfl).symm k) = ix2 p k := funext fun ax => Fin.ext (by
    match ax with
    | ⟨0, _⟩ => exact lhs_row _ _
    | ⟨1, _⟩ => exact (dot_S8000x128_S128x128_S8000x128_1_0_0_1_n_n.lhsIdx_val_of_single rfl _ _).trans hk)
  have er : dot_S8000x128_S128x128_S8000x128_1_0_0_1_n_n.rhsIdx (ix2 p j) ((contrEquiv1 dot_S8000x128_S128x128_S8000x128_1_0_0_1_n_n 128 rfl rfl).symm k) = ix2 k j := funext fun ax => Fin.ext (by
    match ax with
    | ⟨0, _⟩ => exact (dot_S8000x128_S128x128_S8000x128_1_0_0_1_n_n.rhsIdx_val_of_single rfl _ _).trans hk
    | ⟨1, _⟩ => exact rhs_col _ _)
  rw [el, er]

/-- THE STORED VALUE at row `p`, lane `j`: the message of row `p` over its 128 lanes, against the block's two weight
    matrices and two bias rows as loaded. -/
theorem payload_apply (x0 : Vec Ideal S8000x128 .f32) (w1 : Vec Ideal S128x128 .f32) (c1 : Vec Ideal S1x128 .f32)
    (w2 : Vec Ideal S128x128 .f32) (c2 : Vec Ideal S1x128 .f32) (g : Vec Ideal S8000x128 .f32) (p : Fin 8000) (j : Fin 128) :
    k0_pay1 (F := Ideal) x0 w1 c1 w2 c2 g (ix2 p j)
      = message (fun l => x0 (ix2 p l)) (fun l k => w1 (ix2 l k)) (fun k => c1 (ix2 (0 : Fin 1) k))
          (fun k j' => w2 (ix2 k j')) (fun j' => c2 (ix2 (0 : Fin 1) j')) (g (ix2 p j)) j := by
  unfold k0_pay1
  simp only [shapeCast_self]
  rw [mulf_apply, addf_apply, matmul_zero_apply, broadcastTo_1b_ab_apply]
  unfold message act
  simp only [truncf_apply, select_apply, cmpf_apply, mulf_apply, addf_apply, minimumf_apply, broadcast_apply,
    matmul_zero_apply, broadcastTo_1b_ab_apply, exp, log1p, Ideal.exp_def, Ideal.log1p_def, Ideal.ofBits_def]

end Cert.KernelIdeal.RowValue

end
-- ==== Proof.PackedArray.lean ====
/-
  From blocks to the array: what the region leaves in its output array.

  The grid has 100 points; point `t` works on packed rows `8000·t … 8000·t + 7999` of the two 800000×128 operands (the
  radial features and the gathered node features, two edges per row) and on the whole of the two 128×128 weight matrices
  and the two 1×128 bias rows, and writes back the same 8000 rows of the 800000×128 result.  The stored value at a row
  depends only on that row of the two big operands, so every point's block is the restriction of ONE whole-array function
  (`packedOut`), and since the 100 row ranges tile the 800000 rows the array ends holding exactly that function.
-/
import proofs.«110838_j47614007443631_2_alg».proof.Proof.Gen.KernelIdeal.Frame
import proofs.«110838_j47614007443631_2_alg».proof.Proof.KernelRow

set_option maxRecDepth 16384

noncomputable section

namespace Cert.KernelIdeal.Packed

open Cert.KernelIdeal Cert.KernelIdeal.Gen Idealize.ShloMosaic Idealize.ShloMosaic.TcCoe Idealize.ShloMosaic.ValueIdx
open Idealize.SL.Sem Cert.EdgeFilter
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The region's result as one function of its six operand arrays: at packed row `r`, lane `j`, the message of row `r`
    of the packed radial features through the 128×128 weights and 1×128 bias rows, times the packed gathered feature. -/
def packedOut (a7 a8 : S800000x128.Idx → Elt Ideal .f32) (a12 : S128x128.Idx → Elt Ideal .f32) (a18 : S1x128.Idx → Elt Ideal .f32)
    (a16 : S128x128.Idx → Elt Ideal .f32) (a20 : S1x128.Idx → Elt Ideal .f32) : S800000x128.Idx → Elt Ideal .f32 := fun i =>
  message (fun l => a7 (ix2 (i 0) l)) (fun l k => a12 (ix2 l k)) (fun k => a18 (ix2 (0 : Fin 1) k))
    (fun k j' => a16 (ix2 k j')) (fun j' => a20 (ix2 (0 : Fin 1) j')) (a8 i) (i 1)

/-- One stored element against the whole-array function: if the block's row `y 0` is the array's row `i 0` (for the two
    big operands), the small operands are read whole, and the lane is the same, the stored value is `packedOut` at `i`. -/
theorem stored_eq (x0 : Vec Ideal S8000x128 .f32) (w1 : Vec Ideal S128x128 .f32) (c1 : Vec Ideal S1x128 .f32)
    (w2 : Vec Ideal S128x128 .f32) (c2 : Vec Ideal S1x128 .f32) (g : Vec Ideal S8000x128 .f32)
    (a7 a8 : S800000x128.Idx → Elt Ideal .f32) (a12 : S128x128.Idx → Elt Ideal .f32) (a18 : S1x128.Idx → Elt Ideal .f32)
    (a16 : S128x128.Idx → Elt Ideal .f32) (a20 : S1x128.Idx → Elt Ideal .f32)
    (y : S8000x128.Idx) (i : S800000x128.Idx)
    (h0 : ∀ l : Fin 128, x0 (ix2 (y 0) l) = a7 (ix2 (i 0) l))
    (h2 : ∀ l k : Fin 128, w1 (ix2 l k) = a12 (ix2 l k))
    (h3 : ∀ k : Fin 128, c1 (ix2 (0 : Fin 1) k) = a18 (ix2 (0 : Fin 1) k))
    (h4 : ∀ k j' : Fin 128, w2 (ix2 k j') = a16 (ix2 k j'))
    (h5 : ∀ j' : Fin 128, c2 (ix2 (0 : Fin 1) j') = a20 (ix2 (0 : Fin 1) j'))
    (h1 : g y = a8 i) (hj : y 1 = i 1) :
    k0_pay1 (F := Ideal) x0 w1 c1 w2 c2 g y = packedOut a7 a8 a12 a18 a16 a20 i := by
  have hg : g (ix2 (y 0) (y 1)) = a8 i := (congrArg g (eq_ix2 y).symm).trans h1
  refine ((congrArg (k0_pay1 (F := Ideal) x0 w1 c1 w2 c2 g) (eq_ix2 y)).trans
    (RowValue.payload_apply x0 w1 c1 w2 c2 g (y 0) (y 1))).trans ?_
  unfold packedOut
  rw [← hj]
  exact message_congr (y 1) h0 h2 h3 h4 h5 hg

/-- The printed index maps, decided once over the 100 points: the two big operands move with the result along the rows
    and stay at lane block 0; the four small operands stay at block (0, 0); the result's row block is below 100. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 99 :=
  (by decide +kernel : ∀ t : Fin grid0.N, _)

/-- Every one of the 100 row blocks is some point's. -/
theorem index_onto : ∀ q : Fin 100, ∃ t : Fin cfg0.N, win0_6.index t = ![q.val, 0] :=
  (by decide +kernel : ∀ q : Fin 100, ∃ t : Fin grid0.N, win0_6.index t = ![q.val, 0])

/-- WHAT POINT `t` WRITES BACK is block `t` of `packedOut` of the operand arrays as the region finds them. -/
theorem flushed_eq (c : Dev nD) (t : Fin cfg0.N) :
    (dats m 0 c).flushed 6 t = ((cfg0.win 6).blk t).view.read (Elt Ideal)
      (packedOut (V m c main_v7) (V m c main_v8) (V m c main_v12) (V m c main_v18) (V m c main_v16) (V m c main_v20)) := by
  show (cfg0.win 6).cut (grid0.coords t) ((dats m 0 c).after 6 t) = _
  rw [after0_6]
  unfold out0_6
  rw [View.canon_unit_zero origin]
  simp only [View.ld_unit_zero (S := S8000x128) origin, View.ld_unit_zero (S := S128x128) origin, View.ld_unit_zero (S := S1x128) origin]
  obtain ⟨e00, e01, e10, e11, e20, e21, e30, e31, e40, e41, e50, e51, e61, hle⟩ := index_facts t
  funext y
  refine stored_eq (iblk m c 0 t) (iblk m c 2 t) (iblk m c 3 t) (iblk m c 4 t) (iblk m c 5 t) (iblk m c 1 t)
    (V m c main_v7) (V m c main_v8) (V m c main_v12) (V m c main_v18) (V m c main_v16) (V m c main_v20)
    y (((cfg0.win 6).blk t).view.emb y) ?_ ?_ ?_ ?_ ?_ ?_ ?_
  · intro l
    show V m c main_v7 (((cfg0.win 0).blk t).view.emb (ix2 (y 0) l)) = V m c main_v7 (ix2 ((((cfg0.win 6).blk t).view.emb y) 0) l)
    refine congrArg (V m c main_v7) (funext fun a => Fin.ext ?_)
    match a with
    | ⟨0, _⟩ => show win0_0.index t (0 : Fin 2) * 8000 + 1 * (y 0).val = win0_6.index t (0 : Fin 2) * 8000 + 1 * (y 0).val; omega
    | ⟨1, _⟩ => show win0_0.index t (1 : Fin 2) * 128 + 1 * l.val = l.val; omega
  · intro l k
    show V m c main_v12 (((cfg0.win 2).blk t).view.emb (ix2 l k)) = V m c main_v12 (ix2 l k)
    refine congrArg (V m c main_v12) (funext fun a => Fin.ext ?_)
    match a with
    | ⟨0, _⟩ => show win0_2.index t (0 : Fin 2) * 128 + 1 * l.val = l.val; omega
    | ⟨1, _⟩ => show win0_2.index t (1 : Fin 2) * 128 + 1 * k.val = k.val; omega
  · intro k
    show V m c main_v18 (((cfg0.win 3).blk t).view.emb (ix2 (0 : Fin 1) k)) = V m c main_v18 (ix2 (0 : Fin 1) k)
    refine congrArg (V m c main_v18) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  · intro k j'
    show V m c main_v16 (((cfg0.win 4).blk t).view.emb (ix2 k j')) = V m c main_v16 (ix2 k j')
    refine congrArg (V m c main_v16) (funext fun a => Fin.ext ?_)
    match a with
    | ⟨0, _⟩ => show win0_4.index t (0 : Fin 2) * 128 + 1 * k.val = k.val; omega
    | ⟨1, _⟩ => show win0_4.index t (1 : Fin 2) * 128 + 1 * j'.val = j'.val; omega
  · intro j'
    show V m c main_v20 (((cfg0.win 5).blk t).view.emb (ix2 (0 : Fin 1) j')) = V m c main_v20 (ix2 (0 : Fin 1) j')
    refine congrArg (V m c main_v20) (funext fun a => Fin.ext ?_)
    match a with
    | ⟨0, _⟩ => show win0_5.index t (0 : Fin 2) * 1 + 1 * 0 = 0; omega
    | ⟨1, _⟩ => show win0_5.index t (1 : Fin 2) * 128 + 1 * j'.val = j'.val; omega
  · show V m c main_v8 (((cfg0.win 1).blk t).view.emb y) = V m c main_v8 (((cfg0.win 6).blk t).view.emb y)
    refine congrArg (V m c main_v8) (funext fun a => Fin.ext ?_)
    match a with
    | ⟨0, _⟩ => show win0_1.index t (0 : Fin 2) * 8000 + 1 * (y 0).val = win0_6.index t (0 : Fin 2) * 8000 + 1 * (y 0).val; omega
    | ⟨1, _⟩ => show win0_1.index t (1 : Fin 2) * 128 + 1 * (y 1).val = win0_6.index t (1 : Fin 2) * 128 + 1 * (y 1).val; omega
  · refine Fin.ext ?_
    show (y 1).val = win0_6.index t (1 : Fin 2) * 128 + 1 * (y 1).val
    omega

/-- An index of the array is in point `t`'s block iff each coordinate is in the block's range on its axis. -/
theorem mem_block (t : Fin cfg0.N) (i : S800000x128.Idx) :
    i ∈ ((cfg0.win 6).blk t).view.set ↔ ∀ a : Fin 2, win0_6.index t a * S8000x128.size a ≤ (i a).val ∧ (i a).val < win0_6.index t a * S8000x128.size a + S8000x128.size a := by
  show i ∈ ((View.whole main_v21).slice (win0_6.rect t)).set ↔ _
  rw [View.set_slice_whole, Rect.mem_set_unit]
  exact Iff.rfl

/-- The 100 blocks tile the array: row `r` lies in the block of the point whose row block is `r / 8000`. -/
theorem covered (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  obtain ⟨t, ht⟩ := index_onto ⟨(i 0).val / 8000, by omega⟩
  have q0 : win0_6.index t (0 : Fin 2) = (i 0).val / 8000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 128 ≤ (i 1).val ∧ (i 1).val < win0_6.index t (1 : Fin 2) * 128 + 128; omega

/-- THE ARRAY after the region: `packedOut` of the six operand arrays as the region finds them. -/
theorem final (c : Dev nD) : (dats m 0 c).arrAt 6 cfg0.N
    = packedOut (V m c main_v7) (V m c main_v8) (V m c main_v12) (V m c main_v18) (V m c main_v16) (V m c main_v20) :=
  (dats m 0 c).arrAt_eq_of_cover 6 _ (fun t _ => flushed_eq m c t) covered

end Cert.KernelIdeal.Packed

end
-- ==== Proof.Operands.lean ====
/-
  The six arrays the region is launched on, as the host operations before it leave them, read at coordinates.

  * The packed radial features and the packed gathered node features are row-major reshapes of 1600000×64 arrays to
    800000×128: packed row `r`, lane `64·q + d` is edge `2r + q`, feature `d`.
  * Each 128×128 weight matrix is `[[W, 0], [0, W]]`, built by three concatenations with a zero block: at row lane
    `64·q + l`, column lane `64·q' + k` it is `W l k` when `q = q'` and `0` otherwise.
  * Each 1×128 bias row is the 64-vector written twice: at lane `64·q + k` it is `b k`.
-/
import proofs.«110838_j47614007443631_2_alg».proof.Proof.Gen.KernelIdeal.Frame
import proofs.«110838_j47614007443631_2_alg».proof.Proof.EdgeFilter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Operands

open Cert.KernelIdeal Cert.KernelIdeal.Gen Idealize.ShloMosaic Idealize.ShloMosaic.TcCoe Idealize.ShloMosaic.ValueIdx
open Idealize.SL.Sem Idealize.ShloMosaic.StableHlo Cert.EdgeFilter

/-! ## Layout facts, for any element type -/

section Layout
variable {α : Type}

/-- Edge `2r + q` of the unpacked array, for packed row `r` and half `q`. -/
def edge (r : Fin 800000) (q : Fin 2) : Fin 1600000 := ⟨2 * r.val + q.val, by have := r.isLt; have := q.isLt; omega⟩

/-- Packing two edges per row: the 800000×128 reshape at row `r`, lane `64·q + d` is the 1600000×64 array at edge
    `2r + q`, feature `d` (both are position `128·r + 64·q + d` in row-major order). -/
theorem pack_apply (X : S1600000x64.Idx → α) (r : Fin 800000) (q : Fin 2) (d : Fin 64) :
    shapeCast S800000x128 X shapeCasts_S1600000x64_S800000x128 (ix2 r (lane q d)) = X (ix2 (edge r q) d) :=
  shapeCast_apply X _ _ _ (by
    rw [Shape.rowMajor_val_two, Shape.rowMajor_val_two]
    show (2 * r.val + q.val) * 64 + d.val = r.val * 128 + (q.val * 64 + d.val)
    omega)

/-- Unpacking: the 1600000×64 reshape of an 800000×128 array at edge `2r + q`, feature `d` is the array at row `r`,
    lane `64·q + d`. -/
theorem unpack_apply (P : S800000x128.Idx → α) (r : Fin 800000) (q : Fin 2) (d : Fin 64) :
    shapeCast S1600000x64 P shapeCasts_S800000x128_S1600000x64 (ix2 (edge r q) d) = P (ix2 r (lane q d)) :=
  shapeCast_apply P _ _ _ (by
    rw [Shape.rowMajor_val_two, Shape.rowMajor_val_two]
    show r.val * 128 + (q.val * 64 + d.val) = (2 * r.val + q.val) * 64 + d.val
    omega)

/-- Every edge is `2r + q` for its packed row `r = e / 2` and half `q = e % 2`. -/
theorem edge_surj (e : Fin 1600000) : ∃ (r : Fin 800000) (q : Fin 2), e = edge r q :=
  ⟨⟨e.val / 2, by have := e.isLt; omega⟩, ⟨e.val % 2, by omega⟩, Fin.ext (by show e.val = 2 * (e.val / 2) + e.val % 2; omega)⟩

/-- Two 64×64 blocks side by side, read in the left block. -/
theorem beside_left (A B : S64x64.Idx → α) (l k : Fin 64) :
    concatenate S64x128 1 [⟨S64x64, A⟩, ⟨S64x64, B⟩] concatenates_S64x64_S64x64_S64x128_d1 (ix2 l (lane 0 k)) = A (ix2 l k) :=
  concatenate_pair_apply_left (t := S64x128) (s₁ := S64x64) (s₂ := S64x64) 1 A B concatenates_S64x64_S64x64_S64x128_d1
    (ix2 l (lane 0 k)) rfl (ix2 l k) (fun b => by
    match b with
    | ⟨0, _⟩ => rfl
    | ⟨1, _⟩ => show k.val = 0 * 64 + k.val; omega)

/-- Two 64×64 blocks side by side, read in the right block. -/
theorem beside_right (A B : S64x64.Idx → α) (l k : Fin 64) :
    concatenate S64x128 1 [⟨S64x64, A⟩, ⟨S64x64, B⟩] concatenates_S64x64_S64x64_S64x128_d1 (ix2 l (lane 1 k)) = B (ix2 l k) :=
  concatenate_pair_apply_right (t := S64x128) (s₁ := S64x64) (s₂ := S64x64) 1 A B concatenates_S64x64_S64x64_S64x128_d1
    (ix2 l (lane 1 k)) rfl rfl (ix2 l k) (fun b hb => by
    match b with
    | ⟨0, _⟩ => rfl
    | ⟨1, _⟩ => exact absurd rfl hb) (by show k.val + 64 = 1 * 64 + k.val; omega)

/-- Two 64×128 blocks one above the other, read in the upper block. -/
theorem above_upper (A B : S64x128.Idx → α) (l : Fin 64) (j : Fin 128) :
    concatenate S128x128 0 [⟨S64x128, A⟩, ⟨S64x128, B⟩] concatenates_S64x128_S64x128_S128x128_d0 (ix2 (lane 0 l) j) = A (ix2 l j) :=
  concatenate_pair_apply_left (t := S128x128) (s₁ := S64x128) (s₂ := S64x128) 0 A B concatenates_S64x128_S64x128_S128x128_d0
    (ix2 (lane 0 l) j) rfl (ix2 l j) (fun b => by
    match b with
    | ⟨0, _⟩ => show l.val = 0 * 64 + l.val; omega
    | ⟨1, _⟩ => rfl)

/-- Two 64×128 blocks one above the other, read in the lower block. -/
theorem above_lower (A B : S64x128.Idx → α) (l : Fin 64) (j : Fin 128) :
    concatenate S128x128 0 [⟨S64x128, A⟩, ⟨S64x128, B⟩] concatenates_S64x128_S64x128_S128x128_d0 (ix2 (lane 1 l) j) = B (ix2 l j) :=
  concatenate_pair_apply_right (t := S128x128) (s₁ := S64x128) (s₂ := S64x128) 0 A B concatenates_S64x128_S64x128_S128x128_d0
    (ix2 (lane 1 l) j) rfl rfl (ix2 l j) (fun b hb => by
    match b with
    | ⟨0, _⟩ => exact absurd rfl hb
    | ⟨1, _⟩ => rfl) (by show l.val + 64 = 1 * 64 + l.val; omega)

/-- THE BLOCK-DIAGONAL MATRIX `[[W, Z], [Z, W]]` at row lane `64·q + l`, column lane `64·q' + k`: `W l k` on the diagonal
    blocks, `Z l k` off them. -/
theorem blockdiag_apply (W Z : S64x64.Idx → α) (q q' : Fin 2) (l k : Fin 64) :
    concatenate S128x128 0
      [⟨S64x128, concatenate S64x128 1 [⟨S64x64, W⟩, ⟨S64x64, Z⟩] concatenates_S64x64_S64x64_S64x128_d1⟩,
       ⟨S64x128, concatenate S64x128 1 [⟨S64x64, Z⟩, ⟨S64x64, W⟩] concatenates_S64x64_S64x64_S64x128_d1⟩]
      concatenates_S64x128_S64x128_S128x128_d0 (ix2 (lane q l) (lane q' k))
      = if q = q' then W (ix2 l k) else Z (ix2 l k) := by
  fin_cases q <;> fin_cases q'
  · show concatenate S128x128 0 _ _ (ix2 (lane 0 l) (lane 0 k)) = _
    rw [above_upper, beside_left]; rfl
  · show concatenate S128x128 0 _ _ (ix2 (lane 0 l) (lane 1 k)) = _
    rw [above_upper, beside_right]; rfl
  · show concatenate S128x128 0 _ _ (ix2 (lane 1 l) (lane 0 k)) = _
    rw [above_lower, beside_left]; rfl
  · show concatenate S128x128 0 _ _ (ix2 (lane 1 l) (lane 1 k)) = _
    rw [above_lower, beside_right]; rfl

/-- THE REPEATED BIAS ROW: the 64-vector written twice and laid as one 1×128 row, at lane `64·q + k`, is `b k`. -/
theorem twice_apply (b : S64.Idx → α) (q : Fin 2) (k : Fin 64) :
    shapeCast S1x128 (concatenate S128 0 [⟨S64, b⟩, ⟨S64, b⟩] concatenates_S64_S64_S128_d0) shapeCasts_S128_S1x128
      (ix2 (0 : Fin 1) (lane q k)) = b (ix1 k) := by
  rw [shapeCast_a_1a_apply]
  fin_cases q
  · exact concatenate_pair_apply_left (t := S128) (s₁ := S64) (s₂ := S64) 0 b b concatenates_S64_S64_S128_d0
      (ix1 (lane 0 k)) rfl (ix1 k) (fun ax => by
      match ax with
      | ⟨0, _⟩ => show k.val = 0 * 64 + k.val; omega)
  · exact concatenate_pair_apply_right (t := S128) (s₁ := S64) (s₂ := S64) 0 b b concatenates_S64_S64_S128_d0
      (ix1 (lane 1 k)) rfl rfl (ix1 k) (fun ax hax => by
      match ax with
      | ⟨0, _⟩ => exact absurd rfl hax) (by show k.val + 64 = 1 * 64 + k.val; omega)

end Layout

/-- The zero block: a splat of the zero word is `0` everywhere. -/
theorem zero_block (i : S64x64.Idx) :
    broadcastInDim S64x64 ![] bcast_S_S64x64 (constant (F := Ideal) S_ .f32 0x00000000#32) i = (0 : EReal) := by
  rw [broadcastInDim_apply _ bcast_S_S64x64 _ i ix0 (fun a => a.elim0)]
  exact Ideal.ofBits_zero_f32

/-! ## The operand arrays as the region finds them -/

variable (m : (ℓ : Loc nD τ sig) → Buf (Elt Ideal) ℓ)

/-- The source-node features gathered per edge (negative indices wrapped once, as the host program spells it). -/
def gathered (c : Dev nD) : S1600000x64.Idx → Elt Ideal .f32 :=
  Host.gather gather_S100000x64_S1600000x1_S1600000x64_1_0_n_n_0_1_164 (m ((c : Thread nD τ).loc main_arg1))
    (broadcastInDim S1600000x1 ![0] bcast_S1600000_S1600000x1_0
      (select
        (cmpi CmpIPredicate.slt (m ((c : Thread nD τ).loc main_arg2))
          (broadcastInDim S1600000 ![] bcast_S_S1600000 (constantI S_ 32 0#32)))
        (addi (m ((c : Thread nD τ).loc main_arg2))
          (broadcastInDim S1600000 ![] bcast_S_S1600000 (constantI S_ 32 100000#32)))
        (m ((c : Thread nD τ).loc main_arg2))))

/-- Operand 0: the radial features, two edges per row. -/
theorem rbf_packed (c : Dev nD) : (V m c main_v7 : S800000x128.Idx → Elt Ideal .f32)
    = shapeCast S800000x128 (m ((c : Thread nD τ).loc main_arg0)) shapeCasts_S1600000x64_S800000x128 := by
  show StableHlo.after hostOps0 (fun b => m (c, b)) (Proc.devRef .tc main_v7) = _
  after_results <;> rfl

/-- Operand 1: the gathered node features, two edges per row. -/
theorem gathered_packed (c : Dev nD) : (V m c main_v8 : S800000x128.Idx → Elt Ideal .f32)
    = shapeCast S800000x128 (gathered m c) shapeCasts_S1600000x64_S800000x128 := by
  show StableHlo.after hostOps0 (fun b => m (c, b)) (Proc.devRef .tc main_v8) = _
  after_results <;> rfl

/-- The zero block as the host program spells it. -/
abbrev zeros : S64x64.Idx → Elt Ideal .f32 := broadcastInDim S64x64 ![] bcast_S_S64x64 (constant (F := Ideal) S_ .f32 0x00000000#32)

/-- Operand 2: the first layer's weights, block-diagonal. -/
theorem w1_blockdiag (c : Dev nD) : (V m c main_v12 : S128x128.Idx → Elt Ideal .f32)
    = concatenate S128x128 0
      [⟨S64x128, concatenate S64x128 1 [⟨S64x64, m ((c : Thread nD τ).loc main_arg4)⟩, ⟨S64x64, zeros⟩] concatenates_S64x64_S64x64_S64x128_d1⟩,
       ⟨S64x128, concatenate S64x128 1 [⟨S64x64, zeros⟩, ⟨S64x64, m ((c : Thread nD τ).loc main_arg4)⟩] concatenates_S64x64_S64x64_S64x128_d1⟩]
      concatenates_S64x128_S64x128_S128x128_d0 := by
  show StableHlo.after hostOps0 (fun b => m (c, b)) (Proc.devRef .tc main_v12) = _
  after_results <;> rfl

/-- Operand 4: the second layer's weights, block-diagonal. -/
theorem w2_blockdiag (c : Dev nD) : (V m c main_v16 : S128x128.Idx → Elt Ideal .f32)
    = concatenate S128x128 0
      [⟨S64x128, concatenate S64x128 1 [⟨S64x64, m ((c : Thread nD τ).loc main_arg6)⟩, ⟨S64x64, zeros⟩] concatenates_S64x64_S64x64_S64x128_d1⟩,
       ⟨S64x128, concatenate S64x128 1 [⟨S64x64, zeros⟩, ⟨S64x64, m ((c : Thread nD τ).loc main_arg6)⟩] concatenates_S64x64_S64x64_S64x128_d1⟩]
      concatenates_S64x128_S64x128_S128x128_d0 := by
  show StableHlo.after hostOps0 (fun b => m (c, b)) (Proc.devRef .tc main_v16) = _
  after_results <;> rfl

/-- Operand 3: the first layer's bias, written twice. -/
theorem b1_twice (c : Dev nD) : (V m c main_v18 : S1x128.Idx → Elt Ideal .f32)
    = shapeCast S1x128 (concatenate S128 0 [⟨S64, m ((c : Thread nD τ).loc main_arg5)⟩, ⟨S64, m ((c : Thread nD τ).loc main_arg5)⟩] concatenates_S64_S64_S128_d0) shapeCasts_S128_S1x128 := by
  show StableHlo.after hostOps0 (fun b => m (c, b)) (Proc.devRef .tc main_v18) = _
  after_results <;> rfl

/-- Operand 5: the second layer's bias, written twice. -/
theorem b2_twice (c : Dev nD) : (V m c main_v20 : S1x128.Idx → Elt Ideal .f32)
    = shapeCast S1x128 (concatenate S128 0 [⟨S64, m ((c : Thread nD τ).loc main_arg7)⟩, ⟨S64, m ((c : Thread nD τ).loc main_arg7)⟩] concatenates_S64_S64_S128_d0) shapeCasts_S128_S1x128 := by
  show StableHlo.after hostOps0 (fun b => m (c, b)) (Proc.devRef .tc main_v20) = _
  after_results <;> rfl

end Cert.KernelIdeal.Operands

end
-- ==== Proof.EdgeMessage.lean ====
/-
  All 1600000 edge messages as one 1600000×64 array: row `e` is `EdgeFilter.message` of edge `e`'s 64 radial features
  through the two 64×64 layers, times edge `e`'s gathered source-node features.
-/
import proofs.«110838_j47614007443631_2_alg».proof.Proof.EdgeFilter

noncomputable section

namespace Cert.EdgeFilter

open Idealize.ShloMosaic Idealize.ShloMosaic.ValueIdx

/-- The message array: at edge `e`, feature `d`,
    `g (e, d) · ( Σ_k σ( Σ_l rbf (e, l) · W1 (l, k) + b1 k ) · W2 (k, d) + b2 d )`. -/
def edgeMsg (rbf g : (⟨2, ![1600000, 64]⟩ : Shape).Idx → EReal) (W1 : (⟨2, ![64, 64]⟩ : Shape).Idx → EReal)
    (b1 : (⟨1, ![64]⟩ : Shape).Idx → EReal) (W2 : (⟨2, ![64, 64]⟩ : Shape).Idx → EReal) (b2 : (⟨1, ![64]⟩ : Shape).Idx → EReal) :
    (⟨2, ![1600000, 64]⟩ : Shape).Idx → EReal := fun i =>
  message (fun l => rbf (ix2 (i 0) l)) (fun l k => W1 (ix2 l k)) (fun k => b1 (ix1 k)) (fun k j => W2 (ix2 k j))
    (fun j => b2 (ix1 j)) (g i) (i 1)

theorem edgeMsg_apply (rbf g : (⟨2, ![1600000, 64]⟩ : Shape).Idx → EReal) (W1 : (⟨2, ![64, 64]⟩ : Shape).Idx → EReal)
    (b1 : (⟨1, ![64]⟩ : Shape).Idx → EReal) (W2 : (⟨2, ![64, 64]⟩ : Shape).Idx → EReal) (b2 : (⟨1, ![64]⟩ : Shape).Idx → EReal)
    (e : Fin 1600000) (d : Fin 64) :
    edgeMsg rbf g W1 b1 W2 b2 (ix2 e d)
      = message (fun l => rbf (ix2 e l)) (fun l k => W1 (ix2 l k)) (fun k => b1 (ix1 k)) (fun k j => W2 (ix2 k j))
          (fun j => b2 (ix1 j)) (g (ix2 e d)) d := rfl

end Cert.EdgeFilter

end
-- ==== Proof.Unpacked.lean ====
/-
  The region's output array, unpacked, is the message array.

  Edge `e = 2r + q`, feature `d` of the unpacked array is packed row `r`, lane `64·q + d` of the region's output, which is the
  128-wide message of row `r` through the block-diagonal weights.  By the block-diagonal law (`EdgeFilter.message_packed`)
  that is edge `e`'s own 64-wide message; row `r`'s lanes `64·q + l` are edge `e`'s radial features, and the packed
  gathered feature at `(r, 64·q + d)` is edge `e`'s gathered feature `d`.
-/
import proofs.«110838_j47614007443631_2_alg».proof.Proof.PackedArray
import proofs.«110838_j47614007443631_2_alg».proof.Proof.Operands
import proofs.«110838_j47614007443631_2_alg».proof.Proof.EdgeMessage

set_option maxRecDepth 16384

noncomputable section

namespace Cert.KernelIdeal.Unpacked

open Cert.KernelIdeal Cert.KernelIdeal.Gen Idealize.ShloMosaic Idealize.ShloMosaic.TcCoe Idealize.ShloMosaic.ValueIdx
open Idealize.SL.Sem Cert.EdgeFilter Cert.KernelIdeal.Operands Cert.KernelIdeal.Packed

variable (m : (ℓ : Loc nD τ sig) → Buf (Elt Ideal) ℓ)

/-- The first layer's packed weights at lanes: the layer's weights on the diagonal blocks, zero off them. -/
theorem w1_lanes (c : Dev nD) (q q' : Fin 2) (l k : Fin 64) :
    (V m c main_v12 : S128x128.Idx → Elt Ideal .f32) (ix2 (lane q l) (lane q' k))
      = if q = q' then (m ((c : Thread nD τ).loc main_arg4) : S64x64.Idx → Elt Ideal .f32) (ix2 l k) else (0 : EReal) := by
  rw [w1_blockdiag, blockdiag_apply]
  split
  · rfl
  · exact zero_block _

/-- The second layer's packed weights at lanes. -/
theorem w2_lanes (c : Dev nD) (q q' : Fin 2) (l k : Fin 64) :
    (V m c main_v16 : S128x128.Idx → Elt Ideal .f32) (ix2 (lane q l) (lane q' k))
      = if q = q' then (m ((c : Thread nD τ).loc main_arg6) : S64x64.Idx → Elt Ideal .f32) (ix2 l k) else (0 : EReal) := by
  rw [w2_blockdiag, blockdiag_apply]
  split
  · rfl
  · exact zero_block _

/-- The first layer's packed bias row at a lane. -/
theorem b1_lanes (c : Dev nD) (q : Fin 2) (k : Fin 64) :
    (V m c main_v18 : S1x128.Idx → Elt Ideal .f32) (ix2 (0 : Fin 1) (lane q k))
      = (m ((c : Thread nD τ).loc main_arg5) : S64.Idx → Elt Ideal .f32) (ix1 k) := by
  rw [b1_twice, twice_apply]

/-- The second layer's packed bias row at a lane. -/
theorem b2_lanes (c : Dev nD) (q : Fin 2) (k : Fin 64) :
    (V m c main_v20 : S1x128.Idx → Elt Ideal .f32) (ix2 (0 : Fin 1) (lane q k))
      = (m ((c : Thread nD τ).loc main_arg7) : S64.Idx → Elt Ideal .f32) (ix1 k) := by
  rw [b2_twice, twice_apply]

/-- THE BRIDGE on the kernel's side: the region's output array, reshaped back to one edge per row, is the message
    array of the radial features, the gathered node features and the two layers as launched. -/
theorem unpacked_eq (c : Dev nD) :
    shapeCast S1600000x64
      (packedOut (V m c main_v7) (V m c main_v8) (V m c main_v12) (V m c main_v18) (V m c main_v16) (V m c main_v20))
      shapeCasts_S800000x128_S1600000x64
    = edgeMsg (m ((c : Thread nD τ).loc main_arg0)) (gathered m c) (m ((c : Thread nD τ).loc main_arg4))
        (m ((c : Thread nD τ).loc main_arg5)) (m ((c : Thread nD τ).loc main_arg6)) (m ((c : Thread nD τ).loc main_arg7)) := by
  funext i
  obtain ⟨e, d, rfl⟩ : ∃ (e : Fin 1600000) (d : Fin 64), i = ix2 e d := ⟨i 0, i 1, eq_ix2 i⟩
  obtain ⟨r, q, rfl⟩ := edge_surj e
  rw [unpack_apply, edgeMsg_apply]
  refine (message_packed (fun l => (V m c main_v7 : S800000x128.Idx → Elt Ideal .f32) (ix2 r l))
    (fun l k => (V m c main_v12 : S128x128.Idx → Elt Ideal .f32) (ix2 l k))
    (fun k j' => (V m c main_v16 : S128x128.Idx → Elt Ideal .f32) (ix2 k j'))
    (fun k => (V m c main_v18 : S1x128.Idx → Elt Ideal .f32) (ix2 (0 : Fin 1) k))
    (fun j' => (V m c main_v20 : S1x128.Idx → Elt Ideal .f32) (ix2 (0 : Fin 1) j'))
    (fun l k => (m ((c : Thread nD τ).loc main_arg4) : S64x64.Idx → Elt Ideal .f32) (ix2 l k))
    (fun k j' => (m ((c : Thread nD τ).loc main_arg6) : S64x64.Idx → Elt Ideal .f32) (ix2 k j'))
    (fun k => (m ((c : Thread nD τ).loc main_arg5) : S64.Idx → Elt Ideal .f32) (ix1 k))
    (fun j' => (m ((c : Thread nD τ).loc main_arg7) : S64.Idx → Elt Ideal .f32) (ix1 j'))
    (w1_lanes m c) (w2_lanes m c) (b1_lanes m c) (b2_lanes m c)
    ((V m c main_v8 : S800000x128.Idx → Elt Ideal .f32) (ix2 r (lane q d))) q d).trans ?_
  refine message_congr d (fun l => ?_) (fun _ _ => rfl) (fun _ => rfl) (fun _ _ => rfl) (fun _ => rfl) ?_
  · show (V m c main_v7 : S800000x128.Idx → Elt Ideal .f32) (ix2 r (lane q l)) = _
    rw [rbf_packed, pack_apply]
  · rw [gathered_packed, pack_apply]

end Cert.KernelIdeal.Unpacked

end
-- ==== Proof.KernelRun.lean ====
/-
  The kernel program's run, with its result named.

  After the region the host reshapes the 800000×128 output back to one edge per row and scatter-adds the rows into a zero
  100000×64 array at the destination nodes.  The frame run states the result buffer as those two operations applied to
  the region's output array; that array is `packedOut` of the operands (PackedArray), and unpacked it is the message
  array (Unpacked).  So the program ends with its result at the scatter-sum of the message array, its arguments unchanged.
-/
import proofs.«110838_j47614007443631_2_alg».proof.Proof.Unpacked
import Idealize.ShloMosaic.Lib.StableHlo.Run

set_option maxRecDepth 16384

noncomputable section

namespace Cert.KernelIdeal.Scatter

open Cert.KernelIdeal Cert.KernelIdeal.Gen Idealize.ShloMosaic Idealize.ShloMosaic.TcCoe Idealize.ShloMosaic.ValueIdx
open Idealize.SL.Sem Idealize.ShloMosaic.StableHlo Cert.EdgeFilter Cert.KernelIdeal.Operands Cert.KernelIdeal.Packed

/-- The sum, per destination node, of the messages of the edges that end there: the host's accumulating scatter of the
    message rows into a zero array, at the destination indices. -/
def scatterSum (dst : (⟨S1600000, .i32⟩ : BufTy).Contents (Elt Ideal)) (msg : (⟨S1600000x64, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) msg

variable (m : (ℓ : Loc nD τ sig) → Buf (Elt Ideal) ℓ)

/-- The messages this program computes, from its arguments as launched. -/
def messages (c : Dev nD) : (⟨S1600000x64, .f32⟩ : BufTy).Contents (Elt Ideal) :=
  edgeMsg (m ((c : Thread nD τ).loc main_arg0)) (gathered m c) (m ((c : Thread nD τ).loc main_arg4))
    (m ((c : Thread nD τ).loc main_arg5)) (m ((c : Thread nD τ).loc main_arg6)) (m ((c : Thread nD τ).loc main_arg7))

/-- The two host lines after the region, read: the result buffer holds the scatter-sum of the message array. -/
theorem tail_eq (c : Dev nD) :
    Pipeline.afterTail₀ cfgs (dats m) 0 (V0 m) [hostOps1] c main_v25
      = scatterSum (m ((c : Thread nD τ).loc main_arg3)) (messages m c) := by
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have h21 : Pipeline.withArrays (cfgs 0).spec c (V0 m c) (fun w => (dats m 0 c).arrAt w (cfgs 0).N) (Proc.devRef .tc main_v21)
      = packedOut (V m c main_v7) (V m c main_v8) (V m c main_v12) (V m c main_v18) (V m c main_v16) (V m c main_v20) :=
    (Pipeline.withArrays_arr spec0 launch0.win.arr_inj c _ _ 6).trans (final m c)
  unfold Pipeline.afterTail₀
  show StableHlo.after hostOps1 _ (Proc.devRef .tc main_v25) = _
  after_results
  rw [h3, h21]
  exact congrArg (scatterSum (m ((c : Thread nD τ).loc main_arg3))) (Unpacked.unpacked_eq m c)

/-- THE KERNEL PROGRAM'S RUN: every weakly fair execution terminates with the result at the scatter-sum of the message
    array and every argument as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v25) = scatterSum (m ((c : Thread nD τ).loc main_arg3)) (messages m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Scatter

end
-- ==== Proof.RefMessage.lean ====
/-
  The reference's product stage is the message array.

  The reference computes, for all edges at once, `rbf · W1 + b1`, the activation, `· W2 + b2`, and the product with the
  gathered node features.  Read at edge `e`, feature `d` — each matrix product as the sum over the contracted feature,
  each bias as its one row spread over the edges, the activation's pieces pointwise — this is `EdgeFilter.message` of
  edge `e` at `d`: the reference's array before its final scatter is `EdgeFilter.edgeMsg`.
-/
import proofs.«110838_j47614007443631_2_alg».proof.Proof.Gen.ReferenceIdeal.Read
import proofs.«110838_j47614007443631_2_alg».proof.Proof.EdgeMessage

noncomputable section

namespace Cert.ReferenceIdeal.RefValue

open Cert.ReferenceIdeal Cert.ReferenceIdeal.Read Idealize.ShloMosaic Idealize.ShloMosaic.ValueIdx Cert.EdgeFilter

/-! The index maps of the generated stage lemmas, at coordinates. -/

theorem lidx15 (e : Fin 1600000) (d k : Fin 64) : lidx_main_v15 (ix2 e d) k = ix2 e k :=
  funext fun a => by match a with | ⟨0, _⟩ => rfl | ⟨1, _⟩ => rfl
theorem ridx15 (e : Fin 1600000) (d k : Fin 64) : ridx_main_v15 (ix2 e d) k = ix2 k d :=
  funext fun a => by match a with | ⟨0, _⟩ => rfl | ⟨1, _⟩ => rfl
theorem lidx0 (e : Fin 1600000) (k l : Fin 64) : lidx_main_v0 (ix2 e k) l = ix2 e l :=
  funext fun a => by match a with | ⟨0, _⟩ => rfl | ⟨1, _⟩ => rfl
theorem ridx0 (e : Fin 1600000) (k l : Fin 64) : ridx_main_v0 (ix2 e k) l = ix2 l k :=
  funext fun a => by match a with | ⟨0, _⟩ => rfl | ⟨1, _⟩ => rfl
theorem bias1 (e : Fin 1600000) (k : Fin 64) : idx_main_v1 (idx_main_v2 (ix2 e k)) = ix1 k :=
  funext fun a => by match a with | ⟨0, _⟩ => rfl
theorem bias2 (e : Fin 1600000) (d : Fin 64) : idx_main_v16 (idx_main_v17 (ix2 e d)) = ix1 d :=
  funext fun a => by match a with | ⟨0, _⟩ => rfl

/-- THE REFERENCE'S PRODUCT STAGE is the message array of the radial features, the gathered node features and the two
    layers. -/
theorem product_eq (x0 : (⟨S1600000x64, .f32⟩ : BufTy).Contents (Elt Ideal)) (x1 : (⟨S100000x64, .f32⟩ : BufTy).Contents (Elt Ideal))
    (x2 : (⟨S1600000, .i32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    val_main_v26 (F := Ideal) x0 x1 x2 x4 x5 x6 x7 = edgeMsg x0 (val_main_v25 (F := Ideal) x1 x2) x4 x5 x6 x7 := by
  funext i
  obtain ⟨e, d, rfl⟩ : ∃ (e : Fin 1600000) (d : Fin 64), i = ix2 e d := ⟨i 0, i 1, eq_ix2 i⟩
  rw [edgeMsg_apply, val_main_v26_apply, val_main_v18_apply, val_main_v15_apply, val_main_v17_apply, val_main_v16_apply]
  unfold message act
  simp only [lidx15, ridx15, bias2, val_main_v14_apply, val_main_v7_apply, val_main_v13_apply, val_main_v12_apply,
    val_main_cst_2_apply, val_main_v11_apply, val_main_v10_apply, val_main_v9_apply, val_main_v8_apply,
    val_main_cst_1_apply, val_main_v6_apply, val_main_cst_0_apply, val_main_v5_apply, val_main_v4_apply,
    val_main_cst_apply, val_main_v3_apply, val_main_v2_apply, val_main_v1_apply, val_main_v0_apply,
    lidx0, ridx0, bias1, Ideal.mulf_def, Ideal.addf_def, Ideal.minimumf_def, Ideal.hostUnary_exp_def,
    Ideal.hostUnary_log1p_def, Ideal.ofBits_def]

end Cert.ReferenceIdeal.RefValue

end
-- ==== Proof.lean ====
/-
  Continuous-filter convolution (one message-passing step of a graph network): kernel against reference, on the
  extended reals.

  Both programs compute, for each of 1,600,000 edges `e` with 64 radial features `rbf e`, source node `src e` and
  destination node `dst e`,
      msg e d = node_feat (src e) d · ( Σ_k σ( Σ_l rbf e l · W1 l k + b1 k ) · W2 k d + b2 d ),
  where `σ` is the softplus of slope one half with a linear cut (`EdgeFilter.act`), and then sum the messages per
  destination node (an accumulating scatter into a zero 100000×64 array).

  The reference does this with two 1600000×64 by 64×64 matrix products.  The kernel packs two consecutive edges into one
  128-wide row (a row-major reshape), replaces each weight matrix by the block-diagonal `[[W, 0], [0, W]]` and each bias
  by the vector written twice, runs the same two-layer filter on 8000 packed rows per grid point over 100 grid points,
  and reshapes the 800000×128 result back before the same scatter.

  Why they agree on the extended reals (`EdgeFilter.message_packed`): contracting a packed row against a block-diagonal
  matrix at a lane of edge `q` meets the other edge's lanes only through the zero block, and `x · 0 = 0` for every extended
  real `x`, so those terms vanish and what remains is edge `q`'s own 64-term sum; a change of float format is the identity;
  the kernel's and the host's exponential and `log(1 + ·)` are one function.  No finiteness of the inputs is used.

  The modules: EdgeFilter (the mathematics and the law), EdgeMessage (the message array), KernelRow (what the body stores,
  at a coordinate), PackedArray (the region's output array from its 100 blocks), Operands (the reshaped, concatenated
  operand arrays at coordinates), Unpacked (the output array unpacked is the message array), KernelRun (the host lines
  after the region; the kernel program's run), RefMessage (the reference's product stage is the message array).
  The two programs' final scatters, gathers and index preparation are the same operations of the same arguments and are
  never opened.
-/
import proofs.«110838_j47614007443631_2_alg».proof.Defs
import proofs.«110838_j47614007443631_2_alg».proof.Proof.Gen.Kernel
import proofs.«110838_j47614007443631_2_alg».proof.Proof.Gen.Kernel.Skeleton
import proofs.«110838_j47614007443631_2_alg».proof.Proof.Gen.Kernel.Launch
import proofs.«110838_j47614007443631_2_alg».proof.Proof.Gen.Kernel.Points
import proofs.«110838_j47614007443631_2_alg».proof.Proof.Gen.Kernel.Frame
import proofs.«110838_j47614007443631_2_alg».proof.Proof.Gen.KernelIdeal
import proofs.«110838_j47614007443631_2_alg».proof.Proof.Gen.KernelIdeal.Skeleton
import proofs.«110838_j47614007443631_2_alg».proof.Proof.Gen.KernelIdeal.Launch
import proofs.«110838_j47614007443631_2_alg».proof.Proof.Gen.KernelIdeal.Points
import proofs.«110838_j47614007443631_2_alg».proof.Proof.Gen.KernelIdeal.Frame
import proofs.«110838_j47614007443631_2_alg».proof.Proof.Gen.ReferenceIdeal
import proofs.«110838_j47614007443631_2_alg».proof.Proof.Gen.Pre_finite_inputs
import proofs.«110838_j47614007443631_2_alg».proof.Proof.Gen.ReferenceIdeal.Run
import proofs.«110838_j47614007443631_2_alg».proof.Proof.Gen.ReferenceIdeal.Read
import proofs.«110838_j47614007443631_2_alg».proof.Proof.KernelRun
import proofs.«110838_j47614007443631_2_alg».proof.Proof.RefMessage
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the per-destination sums of one and the same message array: the
    kernel's run states it (KernelRun), and the reference's product stage is that array (RefMessage) under the same
    final scatter. -/
theorem algebraic : Cert.algebraic_KernelIdeal_ReferenceIdeal := by
  intro m ρ m' ρ' _ hagree
  refine ⟨fun c => Cert.KernelIdeal.Scatter.scatterSum (m ((c.tc : Thread Cert.KernelIdeal.nD Cert.KernelIdeal.τ).loc Cert.KernelIdeal.main_arg3))
      (Cert.KernelIdeal.Scatter.messages m c), Cert.KernelIdeal.Scatter.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v29_eq]
  unfold Cert.ReferenceIdeal.Read.val_main_v29
  rw [Cert.ReferenceIdeal.RefValue.product_eq, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
